-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096x64 : Shape := ⟨2, ![4096, 64]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S8x2048x4096 .f32) (main_arg1 : IVec S4096x4096 32) (main_arg2 : FVec F S4096x64 .f32) (main_arg3 : FVec F S4096 .f32) (main_arg4 : FVec F S4096x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x64 .f32 := Host.absf main_arg2
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg4
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S8x2048x4096 : Shape := ⟨3, ![8, 2048, 4096]⟩
abbrev S4096x4096 : Shape := ⟨2, ![4096, 4096]⟩
abbrev S4096x64 : Shape := ⟨2, ![4096, 64]⟩
abbrev S4096 : Shape := ⟨1, ![4096]⟩
abbrev S64x64 : Shape := ⟨2, ![64, 64]⟩
abbrev S_ : Shape := ⟨0, ![]⟩
abbrev S64x64x64 : Shape := ⟨3, ![64, 64, 64]⟩
abbrev S64x4096 : Shape := ⟨2, ![64, 4096]⟩
abbrev S256x4096 : Shape := ⟨2, ![256, 4096]⟩
abbrev S256x64 : Shape := ⟨2, ![256, 64]⟩
abbrev S16384x4096 : Shape := ⟨2, ![16384, 4096]⟩
abbrev S512x4096 : Shape := ⟨2, ![512, 4096]⟩
abbrev S1024x4096 : Shape := ⟨2, ![1024, 4096]⟩
abbrev S1024 : Shape := ⟨1, ![1024]⟩
abbrev S512x1024 : Shape := ⟨2, ![512, 1024]⟩
abbrev S1x1024 : Shape := ⟨2, ![1, 1024]⟩

abbrev nBuf : Space → Nat
  | .hbm => 18
  | .vmem => 17
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S4096x4096, .f32⟩
  | .hbm, ⟨5, _⟩ => ⟨S64x64, .i32⟩
  | .hbm, ⟨6, _⟩ => ⟨S64x64, .i32⟩
  | .hbm, ⟨7, _⟩ => ⟨S_, .i32⟩
  | .hbm, ⟨8, _⟩ => ⟨S64x64, .i32⟩
  | .hbm, ⟨9, _⟩ => ⟨S64x64, .i32⟩
  | .hbm, ⟨10, _⟩ => ⟨S64x64, .i1⟩
  | .hbm, ⟨11, _⟩ => ⟨S64x64, .f32⟩
  | .hbm, ⟨12, _⟩ => ⟨S64x64x64, .f32⟩
  | .hbm, ⟨13, _⟩ => ⟨S64x4096, .f32⟩
  | .hbm, ⟨14, _⟩ => ⟨S4096x4096, .bf16⟩
  | .hbm, ⟨15, _⟩ => ⟨S16384x4096, .f32⟩
  | .hbm, ⟨16, _⟩ => ⟨S16384x4096, .f32⟩
  | .hbm, ⟨17, _⟩ => ⟨S8x2048x4096, .f32⟩
  | .local _ .vmem, ⟨0, _⟩ => ⟨S256x4096, .i32⟩
  | .local _ .vmem, ⟨1, _⟩ => ⟨S256x4096, .i32⟩
  | .local _ .vmem, ⟨2, _⟩ => ⟨S256x64, .f32⟩
  | .local _ .vmem, ⟨3, _⟩ => ⟨S256x64, .f32⟩
  | .local _ .vmem, ⟨4, _⟩ => ⟨S64x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .bf16⟩
  | .local _ .vmem, ⟨8, _⟩ => ⟨S256x4096, .bf16⟩
  | .local _ .vmem, ⟨9, _⟩ => ⟨S512x4096, .f32⟩
  | .local _ .vmem, ⟨10, _⟩ => ⟨S512x4096, .f32⟩
  | .local _ .vmem, ⟨11, _⟩ => ⟨S1024x4096, .bf16⟩
  | .local _ .vmem, ⟨12, _⟩ => ⟨S1024x4096, .bf16⟩
  | .local _ .vmem, ⟨13, _⟩ => ⟨S1024, .f32⟩
  | .local _ .vmem, ⟨14, _⟩ => ⟨S1024, .f32⟩
  | .local _ .vmem, ⟨15, _⟩ => ⟨S512x1024, .f32⟩
  | .local _ .vmem, ⟨16, _⟩ => ⟨S512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S_S64x64 : S_.BroadcastsInDim S64x64 (![] : Fin 0 → Fin S64x64.rank)
  bcast_S64x64_S64x64x64_0_1 : S64x64.BroadcastsInDim S64x64x64 (![0, 1] : Fin 2 → Fin S64x64x64.rank)
  shapeCasts_S64x64x64_S64x4096 : S64x64x64.ShapeCasts S64x4096
  inb_S256x4096_S256x4096_0_0 : ∀ a, (![0, 0] : Fin 2 → Nat) a + S256x4096.size a ≤ S256x4096.size a
  h_S256x4096 : 0 < S256x4096.numel
  inb_S256x64_S256x64_0_0 : ∀ a, (![0, 0] : Fin 2 → Nat) a + S256x64.size a ≤ S256x64.size a
  h_S256x64 : 0 < S256x64.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S8x2048x4096_S16384x4096 : S8x2048x4096.ShapeCasts S16384x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x4096_S8x2048x4096 : S16384x4096.ShapeCasts S8x2048x4096
  dot_S256x64_S64x4096_S256x4096_1_0_0_1_n_n_wf : DotDims.WF S256x64 S64x4096 S256x4096 [1] [0] [0] [1] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S4096x64.size a
  hwx0_1 : ∀ i : grid0.Coords, EltTy.bits .f32 = 32 ∨ (Rect.block (s := S4096x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x4096.size a
  hwx0_2 : ∀ i : grid0.Coords, EltTy.bits .f32 = 32 ∨ (Rect.block (s := S64x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S4096.size a
  hwx1_2 : ∀ i : grid1.Coords, EltTy.bits .f32 = 32 ∨ (Rect.block (s := S4096) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x4096.size a
  hwx1_3 : ∀ i : grid1.Coords, EltTy.bits .f32 = 32 ∨ (Rect.block (s := S16384x4096) S512x1024.size (cc1_transform_3 i) (hinb1_3 i)).WholeWords (EltTy.packing .f32)

variable [Facts₀]

def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v10) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096x64 : Shape := ⟨2, ![4096, 64]⟩
abbrev S4096 : Shape := ⟨1, ![4096]⟩
abbrev S_ : Shape := ⟨0, ![]⟩
abbrev S4096x64x64 : Shape := ⟨3, ![4096, 64, 64]⟩
abbrev S4096x64x1 : Shape := ⟨3, ![4096, 64, 1]⟩
abbrev S1x1x4096 : Shape := ⟨3, ![1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .i32⟩
  | .hbm, ⟨2, _⟩ => ⟨S4096x64, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x64x64, .f32⟩
  | .hbm, ⟨10, _⟩ => ⟨S4096x64x1, .f32⟩
  | .hbm, ⟨11, _⟩ => ⟨S4096x64x64, .f32⟩
  | .hbm, ⟨12, _⟩ => ⟨S4096x64x64, .f32⟩
  | .hbm, ⟨13, _⟩ => ⟨S4096x4096, .f32⟩
  | .hbm, ⟨14, _⟩ => ⟨S8x2048x4096, .f32⟩
  | .hbm, ⟨15, _⟩ => ⟨S1x1x4096, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  shapeCasts_S4096x4096_S4096x64x64 : S4096x4096.ShapeCasts S4096x64x64
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x64_S4096x4096 : S4096x64x64.ShapeCasts S4096x4096
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  bcast_S_S8x2048x4096 : S_.BroadcastsInDim S8x2048x4096 (![] : Fin 0 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.KernelRun.lean ====
/-
  The kernel program's run with its result named.

  The program is five segments: host operations, the first grid region, host operations, the second grid region, host
  operations. The buffer contents at each boundary are a fold from the launch memory (`W0` … `W5`): a host stretch
  applies its operations, a region replaces its arrays by what its write-backs leave. Every weakly fair execution
  terminates, nothing faults, and in the final state every buffer that outlives the regions holds the last boundary's
  contents `W5`. Read at the result buffer this names the result; read at an argument it walks back to the launch
  memory, since nothing writes an argument.
-/
import proofs.«107376_j91096256348593_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with the statement, which takes
-- unfolding plain definitions in a metavariable's type
set_option backward.isDefEq.respectTransparency.types false in
/-- Every weakly fair execution of the program terminates without a fault; the result buffer ends at the last
    boundary's contents and the five argument arrays end as launched. -/
theorem run_named : θ_run defs (onTc (τ := τ) (main (F := F))) ⟨m, fun _ => 0, ρ⟩ (fun r => ∀ c : Dev nD,
      r.2.mem ((c.tc : Thread nD τ).loc main_v11) = W5 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v11 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.Spec.lean ====
/-
  The mathematics both programs compute, stated once over the extended reals.

  A weight matrix is stored as integer codes `cd(o, k)` with one scale `sc(o, g)` per row `o` and per group `g` of 64
  consecutive columns: the dequantized weight is `(cd(o, k) - 8) · sc(o, ⌊k / 64⌋)`. A second, dense matrix `dw` is added
  to it with the factor 2, and the layer's output is the product of the input rows with the combined weight plus a
  bias `bs(o)`.

  Two arrangements of that one result are named here. `refOut` multiplies the input with the dequantized weight and with
  `dw` separately, adds the bias to the first product, doubles the second and adds the two. `kerOut` first forms the
  combined weight `weff` — where the scale of a column's group is picked by a sum over all 64 groups against a 0/1
  matrix `E(g, k)` that is 1 exactly when `g = ⌊k / 64⌋` — and multiplies once. `out2` is that single product over the
  input flattened to 16384 rows.
-/
import Idealize.ShloMosaic.PureOps.Ideal
import Idealize.ShloMosaic.Lib.ValueIdx

noncomputable section

open scoped BigOperators

namespace Cert.Spec

open Idealize.ShloMosaic Idealize.ShloMosaic.ValueIdx

/-- The shapes of the five inputs, of the flattened input and of the 0/1 group matrix. -/
abbrev Sx : Shape := ⟨3, ![8, 2048, 4096]⟩
abbrev Sw : Shape := ⟨2, ![4096, 4096]⟩
abbrev Ss : Shape := ⟨2, ![4096, 64]⟩
abbrev Sb : Shape := ⟨1, ![4096]⟩
abbrev Sf : Shape := ⟨2, ![16384, 4096]⟩
abbrev Se : Shape := ⟨2, ![64, 4096]⟩

/-- The float words of the zero point 8 and of the factor 2. -/
abbrev c8 : EReal := Ideal.ofBits .f32 0x41000000#32
abbrev c2 : EReal := Ideal.ofBits .f32 0x40000000#32

/-- The group of 64 consecutive columns that column `k` lies in. -/
def grp (k : Fin 4096) : Fin 64 := ⟨k.val / 64, by have := k.isLt; omega⟩

/-- An integer code read as a signed integer, as an extended real. -/
abbrev code (b : BitVec 32) : EReal := ((b.toInt : ℝ) : EReal)

/-- Every entry of an array is a real number. -/
def AllReal {ι : Type} (a : ι → EReal) : Prop := ∀ i, ∃ r : ℝ, a i = (r : EReal)

/-- The 0/1 group matrix: 1 at `(g, k)` exactly when column `k` lies in group `g`. -/
def expand : Se.Idx → EReal := fun j => if (j 0).val = (j 1).val / 64 then 1 else 0

/-- The reference's arrangement: two products, the bias added to the first, the second doubled. -/
def refOut (x : Sx.Idx → EReal) (cd : Sw.Idx → BitVec 32) (sc : Ss.Idx → EReal) (bs : Sb.Idx → EReal)
    (dw : Sw.Idx → EReal) : Sx.Idx → EReal := fun i =>
  ((∑ k : Fin 4096, x (ix3 (i 0) (i 1) k) * ((code (cd (ix2 (i 2) k)) - c8) * sc (ix2 (i 2) (grp k)))) + bs (ix1 (i 2)))
    + (∑ k : Fin 4096, x (ix3 (i 0) (i 1) k) * dw (ix2 (i 2) k)) * c2

/-- The combined weight: the dequantized weight, its scale picked through the 0/1 matrix `E`, plus twice `dw`. -/
def weff (cd : Sw.Idx → BitVec 32) (sc : Ss.Idx → EReal) (E : Se.Idx → EReal) (dw : Sw.Idx → EReal) : Sw.Idx → EReal :=
  fun j => (code (cd j) - c8) * (∑ g : Fin 64, sc (ix2 (j 0) g) * E (ix2 g (j 1))) + c2 * dw j

/-- One product of the flattened input's rows with the rows of a weight matrix, plus the bias. -/
def out2 (x2 : Sf.Idx → EReal) (w : Sw.Idx → EReal) (bs : Sb.Idx → EReal) : Sf.Idx → EReal := fun j =>
  (∑ k : Fin 4096, x2 (ix2 (j 0) k) * w (ix2 (j 1) k)) + bs (ix1 (j 1))

/-- The kernel's arrangement: one product with the combined weight, plus the bias. -/
def kerOut (x : Sx.Idx → EReal) (cd : Sw.Idx → BitVec 32) (sc : Ss.Idx → EReal) (bs : Sb.Idx → EReal)
    (dw : Sw.Idx → EReal) : Sx.Idx → EReal := fun i =>
  (∑ k : Fin 4096, x (ix3 (i 0) (i 1) k) * weff cd sc expand dw (ix2 (i 2) k)) + bs (ix1 (i 2))

end Cert.Spec

end
-- ==== Proof.HostFold.lean ====
/-
  The buffer contents at the boundaries between the program's segments, read back to the launch memory.

  The result buffer is the second region's output array reshaped from [16384, 4096] to [8, 2048, 4096]. The second
  region is entered with the input `x` flattened to [16384, 4096] (a reshape by the host), with the first region's
  output array, and with the bias as launched. The first region is entered with the codes, the scales and `dw` as
  launched and with a [64, 4096] matrix the host builds from two index grids: it compares the row index `g` with the
  column index of a [64, 64] grid, converts the truth value to a float, repeats each entry 64 times along a new last
  axis and flattens the last two axes; at `(g, d)` that is the comparison of `g` with `⌊d / 64⌋`, the 0/1 group matrix.
-/
import proofs.«107376_j91096256348593_1_alg».proof.Proof.Gen.KernelIdeal.Frame
import proofs.«107376_j91096256348593_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.HostFold

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ) (ρ : Dev nD → PrngReg)

/-! ## The arguments at the first region's entry -/

theorem W1_arg0 (c : Dev nD) : W1 m ρ c (Proc.devRef .tc main_arg0) = m ((c : Thread nD τ).loc main_arg0) := by
  show StableHlo.after hostOps0 (W0 m ρ c) (Proc.devRef .tc main_arg0) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

theorem W1_arg2 (c : Dev nD) : W1 m ρ c (Proc.devRef .tc main_arg2) = m ((c : Thread nD τ).loc main_arg2) := by
  show StableHlo.after hostOps0 (W0 m ρ c) (Proc.devRef .tc main_arg2) = _
  after_results

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg4 (c : Dev nD) : W1 m ρ c (Proc.devRef .tc main_arg4) = m ((c : Thread nD τ).loc main_arg4) := by
  show StableHlo.after hostOps0 (W0 m ρ c) (Proc.devRef .tc main_arg4) = _
  after_results

/-- The matrix the host builds before the first region, as the operations' term. -/
theorem W1_v7 (c : Dev nD) : (W1 m ρ c (Proc.devRef .tc main_v7) : S64x4096.Idx → EReal)
    = shapeCast S64x4096 (broadcastInDim S64x64x64 ![0, 1] bcast_S64x64_S64x64x64_0_1
        (uitofp (F := Ideal) .f32 (cmpi .eq (addi (iotaInDim S64x64 32 0)
          (broadcastInDim S64x64 ![] bcast_S_S64x64 (constantI S_ 32 0#32))) (iotaInDim S64x64 32 1))))
        shapeCasts_S64x64x64_S64x4096 := by
  show StableHlo.after hostOps0 (W0 m ρ c) (Proc.devRef .tc main_v7) = _
  after_results
  rfl

/-! ## The host's matrix is the 0/1 group matrix -/

/-- Two 32-bit words of numbers below 64 are equal exactly when the numbers are. -/
theorem word_eq_iff (a b : Nat) (ha : a < 64) (hb : b < 64) :
    (BitVec.ofNat 32 a = BitVec.ofNat 32 b) ↔ a = b := by
  constructor
  · intro h
    have h' := congrArg BitVec.toNat h
    rw [BitVec.toNat_ofNat, BitVec.toNat_ofNat] at h'
    omega
  · intro h; rw [h]

theorem W1_v7_expand (c : Dev nD) : (W1 m ρ c (Proc.devRef .tc main_v7) : S64x4096.Idx → EReal) = Cert.Spec.expand := by
  rw [W1_v7]
  funext j
  obtain ⟨g, d, rfl⟩ : ∃ (g : Fin 64) (d : Fin 4096), j = ix2 g d := ⟨j 0, j 1, eq_ix2 j⟩
  have hg : g.val < 64 := g.isLt
  have hd : d.val < 4096 := d.isLt
  rw [shapeCast_apply _ shapeCasts_S64x64x64_S64x4096 (ix2 g d)
    (ix3 g (⟨d.val / 64, by omega⟩ : Fin 64) (⟨d.val % 64, by omega⟩ : Fin 64))
    (by rw [Shape.rowMajor_val_three, Shape.rowMajor_val_two]
        show (g.val * 64 + d.val / 64) * 64 + d.val % 64 = g.val * 4096 + d.val
        omega)]
  rw [broadcastInDim_apply _ bcast_S64x64_S64x64x64_0_1 _ _ (ix2 g (⟨d.val / 64, by omega⟩ : Fin 64))
    (fun a => match a with
      | ⟨0, _⟩ => by show g.val = if (64 : Nat) = 1 then 0 else g.val; rw [if_neg (by decide)]
      | ⟨1, _⟩ => by show d.val / 64 = if (64 : Nat) = 1 then 0 else d.val / 64; rw [if_neg (by decide)])]
  show (((IntOp.cmpi .eq (IntOp.addi (BitVec.ofNat 32 g.val) (0#32)) (BitVec.ofNat 32 (d.val / 64))).toNat : ℝ) : EReal)
      = if g.val = d.val / 64 then 1 else 0
  have hz : IntOp.addi (BitVec.ofNat 32 g.val) (0#32) = BitVec.ofNat 32 g.val := by
    show BitVec.ofNat 32 g.val + 0#32 = _
    exact BitVec.add_zero _
  rw [hz]
  by_cases h : g.val = d.val / 64
  · rw [if_pos h]
    have e1 : IntOp.cmpi .eq (BitVec.ofNat 32 g.val) (BitVec.ofNat 32 (d.val / 64)) = 1#1 := by
      show BitVec.ofBool (BitVec.ofNat 32 g.val == BitVec.ofNat 32 (d.val / 64)) = 1#1
      rw [h, beq_self_eq_true]
      rfl
    rw [e1]
    simp
  · rw [if_neg h]
    have hne : BitVec.ofNat 32 g.val ≠ BitVec.ofNat 32 (d.val / 64) :=
      fun e => h ((word_eq_iff _ _ hg (by omega)).1 e)
    have e0 : IntOp.cmpi .eq (BitVec.ofNat 32 g.val) (BitVec.ofNat 32 (d.val / 64)) = 0#1 := by
      show BitVec.ofBool (BitVec.ofNat 32 g.val == BitVec.ofNat 32 (d.val / 64)) = 0#1
      rw [beq_eq_false_iff_ne.2 hne]
      rfl
    rw [e0]
    simp

/-! ## The second region's entry and the result -/

theorem W3_v9 (c : Dev nD) : (W3 m ρ c (Proc.devRef .tc main_v9) : S16384x4096.Idx → EReal)
    = shapeCast S16384x4096 (m ((c : Thread nD τ).loc main_arg0)) shapeCasts_S8x2048x4096_S16384x4096 := by
  have e : W2 m ρ c (Proc.devRef .tc main_arg0) = m ((c : Thread nD τ).loc main_arg0) :=
    (W2_of_ne m ρ c main_arg0 (by decide)).trans (W1_arg0 m ρ c)
  show StableHlo.after hostOps1 (W2 m ρ c) (Proc.devRef .tc main_v9) = _
  after_results
  rw [e]
  rfl

theorem W3_v8 (c : Dev nD) : W3 m ρ c (Proc.devRef .tc main_v8) = (dat0 (F := Ideal) (V1 m ρ) c).arrAt 4 cfg0.N := by
  show StableHlo.after hostOps1 (W2 m ρ c) (Proc.devRef .tc main_v8) = _
  after_results
  exact W2_arr m ρ c 4

theorem W3_arg3 (c : Dev nD) : W3 m ρ c (Proc.devRef .tc main_arg3) = m ((c : Thread nD τ).loc main_arg3) := by
  show StableHlo.after hostOps1 (W2 m ρ c) (Proc.devRef .tc main_arg3) = _
  after_results
  exact (W2_of_ne m ρ c main_arg3 (by decide)).trans (W1_arg3 m ρ c)

theorem W5_v11 (c : Dev nD) : (W5 m ρ c (Proc.devRef .tc main_v11) : S8x2048x4096.Idx → EReal)
    = shapeCast S8x2048x4096 (W4 m ρ c (Proc.devRef .tc main_v10)) shapeCasts_S16384x4096_S8x2048x4096 := by
  show StableHlo.after hostOps2 (W4 m ρ c) (Proc.devRef .tc main_v11) = _
  after_results
  rfl

theorem W4_v10 (c : Dev nD) : W4 m ρ c (Proc.devRef .tc main_v10) = (dat1 (F := Ideal) (V3 m ρ) c).arrAt 3 cfg1.N :=
  W4_arr m ρ c 3

end Cert.KernelIdeal.HostFold

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.Region0.lean ====
/-
  What the first grid region leaves in its output array, for any contents of the buffers at the region's entry.

  The region runs over 16 points; point `t` works on rows `256 t … 256 t + 255` of the 4096 × 4096 arrays. Its body
  reads a 256 × 4096 block of integer codes `cd`, the matching 256 × 64 block of scales `sc`, the whole 64 × 4096 matrix
  `E` and a 256 × 4096 block of `dw`, and stores at `(p, q)` of its block
  `(cd(p, q) - 8) · (∑ g, sc(p, g) · E(g, q)) + 2 · dw(p, q)`.
  Every block is written back, and the 16 row blocks cover the array, so the array ends holding the combined weight
  `weff cd sc E dw` of the specification at every index.
-/
import proofs.«107376_j91096256348593_1_alg».proof.Proof.Gen.KernelIdeal.Frame
import proofs.«107376_j91096256348593_1_alg».proof.Proof.Spec
import proofs.«107376_j91096256348593_1_alg».proof.Proof.LibMatmul
import Idealize.ShloMosaic.Lib.Pipeline.Value

noncomputable section

open Idealize.ShloMosaic Idealize.ShloMosaic.TcCoe Idealize.SL.Sem
open Idealize.ShloMosaic.ValueIdx
open Idealize.ShloMosaic.Pipeline (Dat)
open scoped BigOperators

namespace Cert.KernelIdeal.Region0Value
open Cert.KernelIdeal Cert.KernelIdeal.Gen

/-! ## The body's result at an index of its block -/

/-- The body's stored value at `(p, q)` of a block, from the four blocks it loads: the integer code minus the zero point,
    times the scale row against the 0/1 matrix's column, plus twice the dense weight. The matrix product into the zero
    accumulator is the sum over the 64 groups; the narrowing to bf16 is the identity on extended reals. -/
theorem combine_apply (x0 : Vec Ideal S256x4096 .i32) (x1 : Vec Ideal S256x64 .f32) (x2 : Vec Ideal S64x4096 .f32)
    (x3 : Vec Ideal S256x4096 .f32) (p : Fin 256) (q : Fin 4096) :
    k0_pay1 (F := Ideal) x0 x1 x2 x3 (ix2 p q)
      = (Cert.Spec.code (x0 (ix2 p q)) - Cert.Spec.c8) * (∑ g : Fin 64, x1 (ix2 p g) * x2 (ix2 g q))
        + Cert.Spec.c2 * x3 (ix2 p q) := by
  have hm : matmul (F := Ideal) (φ₁ := .f32) (φ₂ := .f32) dot_S256x64_S64x4096_S256x4096_1_0_0_1_n_n none x1 x2
      (constant S256x4096 .f32 0x00000000#32) (ix2 p q) = ∑ g : Fin 64, x1 (ix2 p g) * x2 (ix2 g q) :=
    Cert.MatOps.matmul_plain_zero_apply (M := 256) (K := 64) (N := 4096) (φ₁ := .f32) (φ₂ := .f32) none x1 x2 p q
  have hc : shapeCast S64x4096 x2 shapeCasts_S64x4096_S64x4096 = x2 := shapeCast_self x2 _
  unfold k0_pay1
  rw [hc]
  exact congrArg (fun s : EReal => (Cert.Spec.code (x0 (ix2 p q)) - Cert.Spec.c8) * s + Cert.Spec.c2 * x3 (ix2 p q)) hm

/-! ## The blocks' places in their arrays -/

/-- The body's loads and its store all start at offset `(0, 0)` of their blocks. -/
theorem zero_offsets : (![0, 0] : Fin 2 → Nat) = fun _ => 0 := funext fun a => by fin_cases a <;> rfl

/-- The printed index maps, decided once over the 16 points: the three row-blocked inputs move with the output along the
    rows and sit at column block 0, and the 0/1 matrix's block is the whole array at `(0, 0)`; the output's row block is
    the point's own number. -/
theorem row_block_indices : ∀ t : Fin cfg0.N,
    win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- the contents of the TensorCore's buffers when the region is entered: arbitrary
variable (V : (c : Dev nD) → (b : Ref sig .tc) → Buf (Elt Ideal) ((c : Thread nD τ).loc b))

/-- What point `t` writes back is block `t` of the combined weight of the arrays as the region found them: the body's
    value at `(p, q)` of the block, with each loaded block read at its place in its array — the codes, the scales' rows
    and the dense weight at row `256 t + p`, the 0/1 matrix whole — is the specification's `weff` at `(256 t + p, q)`. -/
theorem written_back_eq_weff_block (c : Dev nD) (t : Fin cfg0.N) :
    (dat0 (F := Ideal) V c).flushed 4 t
      = ((cfg0.win 4).blk t).view.read (Elt Ideal)
          (Cert.Spec.weff (V c main_arg1) (V c main_arg2) (V c main_v7) (V c main_arg4)) := by
  show (cfg0.win 4).cut (grid0.coords t) ((dat0 V c).after 4 t) = _
  rw [after0_4]
  unfold out0_4
  rw [View.canon_unit_zero zero_offsets]
  simp only [View.ld_unit_zero (S := S256x4096) zero_offsets, View.ld_unit_zero (S := S256x64) zero_offsets,
    View.ld_unit_zero (S := S64x4096) zero_offsets]
  funext j
  obtain ⟨e40, e41, e00, e01, e10, e11, e20, e21, e30, e31⟩ := row_block_indices t
  obtain ⟨p, q, rfl⟩ : ∃ (p : Fin 256) (q : Fin 4096), j = ix2 p q := ⟨j 0, j 1, eq_ix2 j⟩
  show k0_pay1 (F := Ideal) (iblk0 V c 0 t) (iblk0 V c 1 t) (iblk0 V c 2 t) (iblk0 V c 3 t) (ix2 p q)
    = Cert.Spec.weff (V c main_arg1) (V c main_arg2) (V c main_v7) (V c main_arg4) (((cfg0.win 4).blk t).view.emb (ix2 p q))
  refine (combine_apply (iblk0 V c 0 t) (iblk0 V c 1 t) (iblk0 V c 2 t) (iblk0 V c 3 t) p q).trans ?_
  have h0 : (iblk0 V c 0 t : Vec Ideal S256x4096 .i32) (ix2 p q) = V c main_arg1 (((cfg0.win 4).blk t).view.emb (ix2 p q)) := by
    show V c main_arg1 (((cfg0.win 0).blk t).view.emb (ix2 p q)) = _
    refine congrArg (V c main_arg1) ?_
    funext a; apply Fin.ext
    match a with
    | ⟨0, _⟩ => show win0_0.index t (0 : Fin 2) * 256 + 1 * p.val = win0_4.index t (0 : Fin 2) * 256 + 1 * p.val; omega
    | ⟨1, _⟩ => show win0_0.index t (1 : Fin 2) * 4096 + 1 * q.val = win0_4.index t (1 : Fin 2) * 4096 + 1 * q.val; omega
  have h3 : (iblk0 V c 3 t : Vec Ideal S256x4096 .f32) (ix2 p q) = V c main_arg4 (((cfg0.win 4).blk t).view.emb (ix2 p q)) := by
    show V c main_arg4 (((cfg0.win 3).blk t).view.emb (ix2 p q)) = _
    refine congrArg (V c main_arg4) ?_
    funext a; apply Fin.ext
    match a with
    | ⟨0, _⟩ => show win0_3.index t (0 : Fin 2) * 256 + 1 * p.val = win0_4.index t (0 : Fin 2) * 256 + 1 * p.val; omega
    | ⟨1, _⟩ => show win0_3.index t (1 : Fin 2) * 4096 + 1 * q.val = win0_4.index t (1 : Fin 2) * 4096 + 1 * q.val; omega
  have h1 : ∀ g : Fin 64, (iblk0 V c 1 t : Vec Ideal S256x64 .f32) (ix2 p g)
      = V c main_arg2 (ix2 ((((cfg0.win 4).blk t).view.emb (ix2 p q)) 0) g) := fun g => by
    show V c main_arg2 (((cfg0.win 1).blk t).view.emb (ix2 p g)) = _
    refine congrArg (V c main_arg2) ?_
    funext a; apply Fin.ext
    match a with
    | ⟨0, _⟩ => show win0_1.index t (0 : Fin 2) * 256 + 1 * p.val = win0_4.index t (0 : Fin 2) * 256 + 1 * p.val; omega
    | ⟨1, _⟩ => show win0_1.index t (1 : Fin 2) * 64 + 1 * g.val = g.val; omega
  have h2 : ∀ g : Fin 64, (iblk0 V c 2 t : Vec Ideal S64x4096 .f32) (ix2 g q)
      = V c main_v7 (ix2 g ((((cfg0.win 4).blk t).view.emb (ix2 p q)) 1)) := fun g => by
    show V c main_v7 (((cfg0.win 2).blk t).view.emb (ix2 g q)) = _
    refine congrArg (V c main_v7) ?_
    funext a; apply Fin.ext
    match a with
    | ⟨0, _⟩ => show win0_2.index t (0 : Fin 2) * 64 + 1 * g.val = g.val; omega
    | ⟨1, _⟩ => show win0_2.index t (1 : Fin 2) * 4096 + 1 * q.val = win0_4.index t (1 : Fin 2) * 4096 + 1 * q.val; omega
  unfold Cert.Spec.weff
  rw [h0, h3]
  exact congrArg (fun s : EReal => (Cert.Spec.code (V c main_arg1 (((cfg0.win 4).blk t).view.emb (ix2 p q))) - Cert.Spec.c8) * s
      + Cert.Spec.c2 * V c main_arg4 (((cfg0.win 4).blk t).view.emb (ix2 p q)))
    (Finset.sum_congr rfl fun g _ => by rw [h1 g, h2 g])

/-! ## From the blocks to the array -/

/-- An index of the output array lies in point `t`'s block exactly when each coordinate lies in the block's range on
    its axis. -/
theorem mem_row_block_iff (t : Fin cfg0.N) (i : S4096x4096.Idx) :
    i ∈ ((cfg0.win 4).blk t).view.set ↔ ∀ a : Fin 2, win0_4.index t a * S256x4096.size a ≤ (i a).val
      ∧ (i a).val < win0_4.index t a * S256x4096.size a + S256x4096.size a := by
  show i ∈ ((View.whole main_v8).slice (win0_4.rect t)).set ↔ _
  rw [View.set_slice_whole, Rect.mem_set_unit]
  exact Iff.rfl

/-- Every index of the output array is written back by some point: row `r` lies in the block of point `r / 256`, whose
    columns are all 4096. -/
theorem row_blocks_cover (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  obtain ⟨e40, e41, -⟩ := row_block_indices t
  refine ⟨t, flush0_4 t, ?_⟩
  rw [mem_row_block_iff]
  intro a
  match a with
  | ⟨0, _⟩ =>
    show win0_4.index t (0 : Fin 2) * 256 ≤ (i 0).val ∧ (i 0).val < win0_4.index t (0 : Fin 2) * 256 + 256
    omega
  | ⟨1, _⟩ =>
    show win0_4.index t (1 : Fin 2) * 4096 ≤ (i 1).val ∧ (i 1).val < win0_4.index t (1 : Fin 2) * 4096 + 4096
    omega

/-- The output array after the region's last point is the combined weight of the specification, of the four input
    arrays as the region found them. -/
theorem region0_final (c : Dev nD) :
    (dat0 (F := Ideal) V c).arrAt 4 cfg0.N
      = Cert.Spec.weff (V c main_arg1) (V c main_arg2) (V c main_v7) (V c main_arg4) :=
  (dat0 (F := Ideal) V c).arrAt_eq_of_cover 4
    (Cert.Spec.weff (V c main_arg1) (V c main_arg2) (V c main_v7) (V c main_arg4))
    (fun t _ => written_back_eq_weff_block V c t) row_blocks_cover

/-- info: 'Cert.KernelIdeal.Region0Value.region0_final' depends on axioms: [propext, Classical.choice, Quot.sound] -/
#guard_msgs in #print axioms region0_final

end Cert.KernelIdeal.Region0Value

end
-- ==== Proof.LibMatmulNT.lean ====
/-
  The matrix product that contracts the LAST axis of both operands ("md,nd->mn": rows of the left operand against rows
  of the right one, no transpose materialized), into a zero accumulator, read at an index on the extended reals:
  entry (i, j) is Σ_k l(i, k) · r(j, k). Stated for any extents M, K, N.
-/
import Idealize.ShloMosaic.PureOps.Ideal.Laws
import Idealize.ShloMosaic.Lib.ValueIdx
import Idealize.ShloMosaic.Lib.Pipeline.Value

noncomputable section

open scoped BigOperators

namespace Cert.MatOpsNT

open Idealize.ShloMosaic Idealize.ShloMosaic.ValueIdx

variable {M K N : Nat}

/-- The contraction index set of the product "md,nd->mn" is `Fin K`. -/
abbrev ntContr (M K N : Nat) : (DotDims.transposedRhs M K N).contr.Idx ≃ Fin K :=
  contrEquiv1 (DotDims.transposedRhs M K N) K rfl rfl

/-- The left operand's index at output `(i, j)` and contraction coordinate `k` is `(i, k)`. -/
theorem nt_lhsIdx (i : Fin M) (j : Fin N) (k : Fin K) :
    (DotDims.transposedRhs M K N).lhsIdx (ix2 i j) ((ntContr M K N).symm k) = ix2 i k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 i j) _).trans hk

/-- The right operand's index at output `(i, j)` and contraction coordinate `k` is `(j, k)`. -/
theorem nt_rhsIdx (i : Fin M) (j : Fin N) (k : Fin K) :
    (DotDims.transposedRhs M K N).rhsIdx (ix2 i j) ((ntContr M K N).symm k) = ix2 j k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 i j) _).trans hk

/-- The product "md,nd->mn" into the zero accumulator at `(i, j)` is the sum over `k` of `l(i, k) · r(j, k)`. -/
theorem matmul_nt_zero_apply {φ₁ φ₂ : FTy} (prec : Option ContractPrecision) (l : FVec Ideal ⟨2, ![M, K]⟩ φ₁)
    (r : FVec Ideal ⟨2, ![N, K]⟩ φ₂) (i : Fin M) (j : Fin N) :
    matmul (F := Ideal) (DotDims.transposedRhs M K N) prec l r (constant ⟨2, ![M, N]⟩ .f32 0x00000000#32) (ix2 i j)
      = ∑ k : Fin K, l (ix2 i k) * r (ix2 j k) := by
  simp only [matmul]
  rw [Ideal.matmul_constant_zero_apply]
  rw [← Equiv.sum_comp (ntContr M K N).symm]
  refine Finset.sum_congr rfl fun k _ => ?_
  rw [nt_lhsIdx, nt_rhsIdx]

end Cert.MatOpsNT

end
-- ==== Proof.Region1.lean ====
/-
  What the second grid region leaves in its output array, for any contents the region finds in its arrays.

  The region walks a 32 x 4 grid of points. At point (i, j) it reads rows 512 i .. 512 i + 511 of the flattened input
  x2 [16384, 4096], rows 1024 j .. 1024 j + 1023 of the weight w [4096, 4096] and entries 1024 j .. 1024 j + 1023 of the
  bias bs [4096], and writes the 512 x 1024 block (i, j) of the output: at (p, q) of the block, the sum over k of
  x2(512 i + p, k) * w(1024 j + q, k), plus bs(1024 j + q). The blocks tile the output, so the output array ends
  holding, at every (m, o), the sum over k of x2(m, k) * w(o, k) plus bs(o).
-/
import proofs.«107376_j91096256348593_1_alg».proof.Proof.Gen.KernelIdeal.Frame
import proofs.«107376_j91096256348593_1_alg».proof.Proof.Spec
import proofs.«107376_j91096256348593_1_alg».proof.Proof.LibMatmulNT
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.KernelIdeal.Region1Value
open Cert.KernelIdeal Cert.KernelIdeal.Gen

/-! ## The block's value at a coordinate pair -/

/-- The bias vector viewed as one row and repeated down the 512 rows reads, at (p, q), its entry q. -/
theorem bias_rows_apply (x2 : Vec Ideal S1024 .f32) (p : Fin 512) (q : Fin 1024) :
    broadcastTo S512x1024 (shapeCast S1x1024 x2 shapeCasts_S1024_S1x1024) broadcasts_S1x1024_S512x1024 (ix2 p q)
      = x2 (ix1 q) := by
  refine (broadcastTo_apply _ _ (ix2 p q) (ix2 (0 : Fin 1) q) fun a => ?_).trans ?_
  · match a with
    | ⟨0, _⟩ => rfl
    | ⟨1, _⟩ => rfl
  · refine shapeCast_apply _ _ _ (ix1 q) ?_
    refine (Shape.rowMajor_val_one (ix1 q)).trans ?_
    refine Eq.symm ((Shape.rowMajor_val_two (ix2 (0 : Fin 1) q)).trans ?_)
    show (0 : ℕ) * 1024 + q.val = q.val
    omega

/-- The block the body stores, at (p, q): row p of the input block against row q of the weight block, plus entry q of
    the bias block. The change of float format and the casts to the same shape are the identity. -/
theorem block_apply (x0 : Vec Ideal S512x4096 .f32) (x1 : Vec Ideal S1024x4096 .bf16) (x2 : Vec Ideal S1024 .f32)
    (p : Fin 512) (q : Fin 1024) :
    k1_pay1 (F := Ideal) x0 x1 x2 (ix2 p q) = (∑ k : Fin 4096, x0 (ix2 p k) * x1 (ix2 q k)) + x2 (ix1 q) := by
  unfold k1_pay1
  refine (addf_apply _ _ (ix2 p q)).trans ?_
  refine congrArg₂ (· + ·) ?_ (bias_rows_apply x2 p q)
  refine (Cert.MatOpsNT.matmul_nt_zero_apply (M := 512) (K := 4096) (N := 1024) none _ _ p q).trans ?_
  refine Finset.sum_congr rfl fun k _ => ?_
  rw [shapeCast_self, shapeCast_self]
  rfl

/-! ## The index maps over the grid -/

/-- The printed index maps, decided once over the 128 points: the input block moves with the output block's row index,
    the weight and bias blocks with its column index, the other block indices are zero, and the output's block indices
    stay within the 32 x 4 blocks of the output. -/
theorem index_facts : ∀ t : Fin cfg1.N, win1_0.index t (0 : Fin 2) = win1_3.index t (0 : Fin 2)
    ∧ win1_0.index t (1 : Fin 2) = 0
    ∧ win1_1.index t (0 : Fin 2) = win1_3.index t (1 : Fin 2)
    ∧ win1_1.index t (1 : Fin 2) = 0
    ∧ win1_2.index t (0 : Fin 1) = win1_3.index t (1 : Fin 2)
    ∧ win1_3.index t (0 : Fin 2) ≤ 31
    ∧ win1_3.index t (1 : Fin 2) ≤ 3 :=
  (by decide +kernel : ∀ t : Fin grid1.N, _)

/-- Every one of the 32 x 4 output blocks is some point's. -/
theorem index_onto : ∀ (b0 : Fin 32) (b1 : Fin 4), ∃ t : Fin cfg1.N, win1_3.index t = ![b0.val, b1.val] :=
  (by decide +kernel : ∀ (b0 : Fin 32) (b1 : Fin 4), ∃ t : Fin grid1.N, win1_3.index t = ![b0.val, b1.val])

/-! ## What a point writes back -/

variable (V : (c : Dev nD) → (b : Ref sig .tc) → Buf (Elt Ideal) ((c : Thread nD τ).loc b))

theorem zero_offsets2 : (![0, 0] : Fin 2 → Nat) = fun _ => 0 := funext fun a => by fin_cases a <;> rfl
theorem zero_offsets1 : (![0] : Fin 1 → Nat) = fun _ => 0 := funext fun a => by fin_cases a; rfl

/-- The row of the output array that row `p` of point `t`'s output block is: block row index times 512, plus `p`. -/
def row (t : Fin cfg1.N) (p : Fin 512) : Fin 16384 :=
  ⟨win1_3.index t (0 : Fin 2) * 512 + p.val, by have := (index_facts t).2.2.2.2.2.1; have := p.isLt; omega⟩

/-- The column of the output array that column `q` of point `t`'s output block is: block column index times 1024,
    plus `q`. -/
def col (t : Fin cfg1.N) (q : Fin 1024) : Fin 4096 :=
  ⟨win1_3.index t (1 : Fin 2) * 1024 + q.val, by have := (index_facts t).2.2.2.2.2.2; have := q.isLt; omega⟩

/-- Entry (p, q) of point `t`'s output block sits in the output array at (row, column). -/
theorem out_block_emb (t : Fin cfg1.N) (p : Fin 512) (q : Fin 1024) :
    (((cfg1.win 3).blk t).view.emb (ix2 p q) : S16384x4096.Idx) = ix2 (row t p) (col t q) := by
  funext a; apply Fin.ext
  match a with
  | ⟨0, _⟩ => show win1_3.index t (0 : Fin 2) * 512 + 1 * p.val = win1_3.index t (0 : Fin 2) * 512 + p.val; omega
  | ⟨1, _⟩ => show win1_3.index t (1 : Fin 2) * 1024 + 1 * q.val = win1_3.index t (1 : Fin 2) * 1024 + q.val; omega

/-- Entry (p, k) of point `t`'s input block is the flattened input at (row of p, k): the input's block row index is the
    output's and its block column index is zero. -/
theorem x_block_apply (c : Dev nD) (t : Fin cfg1.N) (p : Fin 512) (k : Fin 4096) :
    (iblk1 V c 0 t : Vec Ideal S512x4096 .f32) (ix2 p k) = (V c main_v9 : S16384x4096.Idx → EReal) (ix2 (row t p) k) := by
  obtain ⟨e0, e1, -⟩ := index_facts t
  unfold iblk1
  rw [View.read_apply]
  show V c main_v9 _ = V c main_v9 _
  congr 1
  funext a; apply Fin.ext
  match a with
  | ⟨0, _⟩ => show win1_0.index t (0 : Fin 2) * 512 + 1 * p.val = win1_3.index t (0 : Fin 2) * 512 + p.val; rw [e0]; omega
  | ⟨1, _⟩ => show win1_0.index t (1 : Fin 2) * 4096 + 1 * k.val = k.val; rw [e1]; omega

/-- Entry (q, k) of point `t`'s weight block is the weight at (column of q, k): the weight's block row index is the
    output's block COLUMN index and its block column index is zero. -/
theorem w_block_apply (c : Dev nD) (t : Fin cfg1.N) (q : Fin 1024) (k : Fin 4096) :
    (iblk1 V c 1 t : Vec Ideal S1024x4096 .bf16) (ix2 q k) = (V c main_v8 : S4096x4096.Idx → EReal) (ix2 (col t q) k) := by
  obtain ⟨-, -, e2, e3, -⟩ := index_facts t
  unfold iblk1
  rw [View.read_apply]
  show V c main_v8 _ = V c main_v8 _
  congr 1
  funext a; apply Fin.ext
  match a with
  | ⟨0, _⟩ => show win1_1.index t (0 : Fin 2) * 1024 + 1 * q.val = win1_3.index t (1 : Fin 2) * 1024 + q.val; rw [e2]; omega
  | ⟨1, _⟩ => show win1_1.index t (1 : Fin 2) * 4096 + 1 * k.val = k.val; rw [e3]; omega

/-- Entry q of point `t`'s bias block is the bias at the column of q. -/
theorem b_block_apply (c : Dev nD) (t : Fin cfg1.N) (q : Fin 1024) :
    (iblk1 V c 2 t : Vec Ideal S1024 .f32) (ix1 q) = (V c main_arg3 : S4096.Idx → EReal) (ix1 (col t q)) := by
  obtain ⟨-, -, -, -, e4, -⟩ := index_facts t
  unfold iblk1
  rw [View.read_apply]
  show V c main_arg3 _ = V c main_arg3 _
  congr 1
  funext a; apply Fin.ext
  match a with
  | ⟨0, _⟩ => show win1_2.index t (0 : Fin 1) * 1024 + 1 * q.val = win1_3.index t (1 : Fin 2) * 1024 + q.val; rw [e4]; omega

/-- What point `t` writes back is its block of the one product-plus-bias function of the three arrays the region finds. -/
theorem flushed_eq (c : Dev nD) (t : Fin cfg1.N) :
    (dat1 (F := Ideal) V c).flushed 3 t
      = ((cfg1.win 3).blk t).view.read (Elt Ideal) (Cert.Spec.out2 (V c main_v9) (V c main_v8) (V c main_arg3)) := by
  show (cfg1.win 3).cut (grid1.coords t) ((dat1 (F := Ideal) V c).after 3 t) = _
  rw [after1_3]
  unfold out1_3
  rw [View.canon_unit_zero zero_offsets2]
  simp only [View.ld_unit_zero (S := S512x4096) zero_offsets2, View.ld_unit_zero (S := S1024x4096) zero_offsets2,
    View.ld_unit_zero (S := S1024) zero_offsets1]
  funext j
  obtain ⟨p, q, rfl⟩ : ∃ (p : Fin 512) (q : Fin 1024), j = ix2 p q := ⟨j 0, j 1, eq_ix2 j⟩
  show k1_pay1 (F := Ideal) (iblk1 V c 0 t) (iblk1 V c 1 t) (iblk1 V c 2 t) (ix2 p q)
    = Cert.Spec.out2 (V c main_v9) (V c main_v8) (V c main_arg3) (((cfg1.win 3).blk t).view.emb (ix2 p q))
  rw [out_block_emb t p q]
  refine (block_apply (iblk1 V c 0 t) (iblk1 V c 1 t) (iblk1 V c 2 t) p q).trans ?_
  exact congrArg₂ (fun a b : EReal => a + b)
    (Finset.sum_congr rfl fun k _ =>
      congrArg₂ (fun a b : EReal => a * b) (x_block_apply V c t p k) (w_block_apply V c t q k))
    (b_block_apply V c t q)

/-! ## From the blocks to the array -/

/-- An index of the output array is in point `t`'s block iff each coordinate is in the block's range on its axis. -/
theorem mem_out_block (t : Fin cfg1.N) (i : S16384x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v10).slice (win1_3.rect t)).set ↔ _
  rw [View.set_slice_whole, Rect.mem_set_unit]
  exact Iff.rfl

/-- The blocks tile the output: index (m, o) lies in the block of the point whose block indices are
    (m / 512, o / 1024), and every point writes its block back. -/
theorem covered (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  obtain ⟨t, ht⟩ := index_onto ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [mem_out_block]
  intro a
  match a with
  | ⟨0, _⟩ =>
    show win1_3.index t (0 : Fin 2) * 512 ≤ (i 0).val ∧ (i 0).val < win1_3.index t (0 : Fin 2) * 512 + 512
    omega
  | ⟨1, _⟩ =>
    show win1_3.index t (1 : Fin 2) * 1024 ≤ (i 1).val ∧ (i 1).val < win1_3.index t (1 : Fin 2) * 1024 + 1024
    omega

/-- The output array after the region's last point: at every (m, o) the sum over k of x2(m, k) * w(o, k), plus bs(o),
    of the arrays the region finds. -/
theorem region1_final (c : Dev nD) :
    (dat1 (F := Ideal) V c).arrAt 3 cfg1.N = Cert.Spec.out2 (V c main_v9) (V c main_v8) (V c main_arg3) :=
  (dat1 (F := Ideal) V c).arrAt_eq_of_cover 3 (Cert.Spec.out2 (V c main_v9) (V c main_v8) (V c main_arg3))
    (fun t _ => flushed_eq V c t) covered

end Cert.KernelIdeal.Region1Value

end
-- ==== Proof.Flatten.lean ====
/-
  Flattening the batch axes commutes with the product.

  The kernel flattens the input [8, 2048, 4096] to [16384, 4096] (row `b · 2048 + s`), multiplies once, and views the
  [16384, 4096] result as [8, 2048, 4096] again. Entry `(b, s, o)` of that result is entry `(b · 2048 + s, o)` of the
  flat product, whose row of the flat input is the row `(b, s)` of the input: both views keep the row-major order.
-/
import proofs.«107376_j91096256348593_1_alg».proof.Proof.Spec
import Idealize.ShloMosaic.Lib.Pipeline.Value

noncomputable section

open scoped BigOperators

namespace Cert.Spec

open Idealize.ShloMosaic Idealize.ShloMosaic.ValueIdx

/-- The flat row of the batch position `(b, s)`. -/
def flatRow (b : Fin 8) (s : Fin 2048) : Fin 16384 := ⟨b.val * 2048 + s.val, by have := b.isLt; have := s.isLt; omega⟩

/-- The flattened input at `(b · 2048 + s, k)` is the input at `(b, s, k)`. -/
theorem flat_apply (x : Sx.Idx → EReal) (h : Sx.ShapeCasts Sf) (b : Fin 8) (s : Fin 2048) (k : Fin 4096) :
    shapeCast Sf x h (ix2 (flatRow b s) k) = x (ix3 b s k) :=
  shapeCast_apply x h (ix2 (flatRow b s) k) (ix3 b s k)
    (by rw [Shape.rowMajor_val_three, Shape.rowMajor_val_two]
        show (b.val * 2048 + s.val) * 4096 + k.val = (b.val * 2048 + s.val) * 4096 + k.val
        rfl)

/-- A [16384, 4096] array viewed as [8, 2048, 4096], at `(b, s, o)`. -/
theorem unflat_apply (y : Sf.Idx → EReal) (h : Sf.ShapeCasts Sx) (b : Fin 8) (s : Fin 2048) (o : Fin 4096) :
    shapeCast Sx y h (ix3 b s o) = y (ix2 (flatRow b s) o) :=
  shapeCast_apply y h (ix3 b s o) (ix2 (flatRow b s) o)
    (by rw [Shape.rowMajor_val_three, Shape.rowMajor_val_two]
        show (b.val * 2048 + s.val) * 4096 + o.val = (b.val * 2048 + s.val) * 4096 + o.val
        rfl)

/-- Flatten, multiply once with the combined weight, unflatten: the kernel's arrangement. -/
theorem unflat_out2_flat (x : Sx.Idx → EReal) (cd : Sw.Idx → BitVec 32) (sc : Ss.Idx → EReal) (bs : Sb.Idx → EReal)
    (dw : Sw.Idx → EReal) (h1 : Sx.ShapeCasts Sf) (h2 : Sf.ShapeCasts Sx) :
    shapeCast Sx (out2 (shapeCast Sf x h1) (weff cd sc expand dw) bs) h2 = kerOut x cd sc bs dw := by
  funext i
  obtain ⟨b, s, o, rfl⟩ : ∃ (b : Fin 8) (s : Fin 2048) (o : Fin 4096), i = ix3 b s o := ⟨i 0, i 1, i 2, eq_ix3 i⟩
  rw [unflat_apply]
  show (∑ k : Fin 4096, shapeCast Sf x h1 (ix2 (flatRow b s) k) * weff cd sc expand dw (ix2 o k)) + bs (ix1 o)
      = (∑ k : Fin 4096, x (ix3 b s k) * weff cd sc expand dw (ix2 o k)) + bs (ix1 o)
  simp only [flat_apply]

end Cert.Spec

end
-- ==== Proof.KernelValue.lean ====
/-
  The kernel program's result as one function of the launch arguments.

  Reading the boundary contents back: the result is the second region's output array viewed as [8, 2048, 4096]; that
  array is one product of the flattened input with the first region's output array plus the bias; the first region's
  output array is the combined weight built from the codes, the scales, the 0/1 group matrix and `dw`. Together: the
  kernel's arrangement `kerOut` of the five arguments.
-/
import proofs.«107376_j91096256348593_1_alg».proof.Proof.HostFold
import proofs.«107376_j91096256348593_1_alg».proof.Proof.Region0
import proofs.«107376_j91096256348593_1_alg».proof.Proof.Region1
import proofs.«107376_j91096256348593_1_alg».proof.Proof.Flatten

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The first region's output array, as the second region finds it: the combined weight of the launch arguments. -/
theorem weight_eq (c : Dev nD) :
    (W3 m ρ c (Proc.devRef .tc main_v8) : S4096x4096.Idx → EReal)
      = Cert.Spec.weff (m ((c : Thread nD τ).loc main_arg1)) (m ((c : Thread nD τ).loc main_arg2)) Cert.Spec.expand
          (m ((c : Thread nD τ).loc main_arg4)) := by
  rw [HostFold.W3_v8, Region0Value.region0_final (V1 m ρ) c]
  show Cert.Spec.weff (W1 m ρ c (Proc.devRef .tc main_arg1)) (W1 m ρ c (Proc.devRef .tc main_arg2))
      (W1 m ρ c (Proc.devRef .tc main_v7)) (W1 m ρ c (Proc.devRef .tc main_arg4)) = _
  rw [HostFold.W1_arg1, HostFold.W1_arg2, HostFold.W1_v7_expand, HostFold.W1_arg4]

/-- The result buffer after the run is the kernel's arrangement of the launch arguments. -/
theorem result_eq (c : Dev nD) :
    (W5 m ρ c (Proc.devRef .tc main_v11) : S8x2048x4096.Idx → EReal)
      = Cert.Spec.kerOut (m ((c : Thread nD τ).loc main_arg0)) (m ((c : Thread nD τ).loc main_arg1))
          (m ((c : Thread nD τ).loc main_arg2)) (m ((c : Thread nD τ).loc main_arg3)) (m ((c : Thread nD τ).loc main_arg4)) := by
  rw [HostFold.W5_v11, HostFold.W4_v10, Region1Value.region1_final (V3 m ρ) c]
  show shapeCast S8x2048x4096 (Cert.Spec.out2 (W3 m ρ c (Proc.devRef .tc main_v9)) (W3 m ρ c (Proc.devRef .tc main_v8))
      (W3 m ρ c (Proc.devRef .tc main_arg3))) shapeCasts_S16384x4096_S8x2048x4096 = _
  rw [HostFold.W3_v9, weight_eq, HostFold.W3_arg3]
  exact Cert.Spec.unflat_out2_flat _ _ _ _ _ _ _

end Cert.KernelIdeal.KernelValue

end
-- ==== Proof.RefRead.lean ====
/-
  The reference program's result, read at one output entry, is the specification's reference arrangement.

  The reference forms the dequantized weight by viewing the [4096, 4096] matrix of shifted codes as [4096, 64, 64]
  (row, group, position in the group), multiplying every group by its one scale, and viewing the product as
  [4096, 4096] again. Column `k` of the flat matrix is position `k % 64` of group `k / 64`, so the entry `(o, k)` of the
  dequantized weight is `(cd(o, k) - 8) · sc(o, k / 64)`. The two products, the bias and the factor 2 then read off
  entry by entry.
-/
import proofs.«107376_j91096256348593_1_alg».proof.Proof.Gen.ReferenceIdeal.Read
import proofs.«107376_j91096256348593_1_alg».proof.Proof.Spec
import Idealize.ShloMosaic.Lib.Pipeline.Value

noncomputable section
open Idealize.ShloMosaic Idealize.ShloMosaic.TcCoe Idealize.SL.Sem Idealize.ShloMosaic.ValueIdx
open scoped BigOperators

namespace Cert.ReferenceIdeal.RefValue
open Cert.ReferenceIdeal

/-- Splitting the flat entry `(o, k)` into `(o, k / 64, k % 64)` and flattening again gives `(o, k)` back. -/
theorem idx_flat (o k : Fin 4096) : Read.idx_main_v3 (Read.idx_main_v7 (ix2 o k)) = ix2 o k := by
  have ho : o.val < 4096 := o.isLt
  have hk : k.val < 4096 := k.isLt
  funext a
  match a with
  | ⟨0, _⟩ =>
    refine Fin.ext ?_
    show (((o.val * 4096 + k.val) / 4096 * 64 + (o.val * 4096 + k.val) / 64 % 64) * 64 + (o.val * 4096 + k.val) % 64) / 4096 = o.val
    omega
  | ⟨1, _⟩ =>
    refine Fin.ext ?_
    show (((o.val * 4096 + k.val) / 4096 * 64 + (o.val * 4096 + k.val) / 64 % 64) * 64 + (o.val * 4096 + k.val) % 64) % 4096 = k.val
    omega

/-- The scale that multiplies the flat entry `(o, k)` is the one of row `o` and of the group `k / 64`. -/
theorem idx_scale (o k : Fin 4096) :
    Read.idx_main_v4 (Read.idx_main_v5 (Read.idx_main_v7 (ix2 o k))) = ix2 o (Cert.Spec.grp k) := by
  have ho : o.val < 4096 := o.isLt
  have hk : k.val < 4096 := k.isLt
  funext a
  match a with
  | ⟨0, _⟩ =>
    refine Fin.ext ?_
    show (o.val * 4096 + k.val) / 4096 = o.val
    omega
  | ⟨1, _⟩ =>
    refine Fin.ext ?_
    show (o.val * 4096 + k.val) / 64 % 64 = k.val / 64
    omega

/-- The dequantized weight at `(o, k)`: the shifted code times the scale of the column's group. -/
theorem weight_apply (x1 : IVec S4096x4096 32) (x2 : FVec Ideal S4096x64 .f32) (o k : Fin 4096) :
    Read.val_main_v7 (F := Ideal) x1 x2 (ix2 o k)
      = (Cert.Spec.code (x1 (ix2 o k)) - Cert.Spec.c8) * x2 (ix2 o (Cert.Spec.grp k)) := by
  rw [Read.val_main_v7_apply, Read.val_main_v6_apply, Read.val_main_v3_apply, Read.val_main_v2_apply,
    Read.val_main_v0_apply, Read.val_main_v1_apply, Read.val_main_cst_apply, Read.val_main_v5_apply,
    Read.val_main_v4_apply, idx_flat, idx_scale]
  rfl

theorem ref_eq (x0 : FVec Ideal S8x2048x4096 .f32) (x1 : IVec S4096x4096 32) (x2 : FVec Ideal S4096x64 .f32)
    (x3 : FVec Ideal S4096 .f32) (x4 : FVec Ideal S4096x4096 .f32) :
    Read.val_main_v15 (F := Ideal) x0 x1 x2 x3 x4 = Cert.Spec.refOut x0 x1 x2 x3 x4 := by
  funext i
  obtain ⟨b, r, o, rfl⟩ : ∃ (b : Fin 8) (r : Fin 2048) (o : Fin 4096), i = ix3 b r o := ⟨i 0, i 1, i 2, eq_ix3 i⟩
  have hl8 : ∀ k : Fin 4096, Read.lidx_main_v8 (ix3 b r o) k = ix3 b r k := fun k => funext fun a => by
    match a with | ⟨0, _⟩ => rfl | ⟨1, _⟩ => rfl | ⟨2, _⟩ => rfl
  have hr8 : ∀ k : Fin 4096, Read.ridx_main_v8 (ix3 b r o) k = ix2 o k := fun k => funext fun a => by
    match a with | ⟨0, _⟩ => rfl | ⟨1, _⟩ => rfl
  have hl12 : ∀ k : Fin 4096, Read.lidx_main_v12 (ix3 b r o) k = ix3 b r k := fun k => funext fun a => by
    match a with | ⟨0, _⟩ => rfl | ⟨1, _⟩ => rfl | ⟨2, _⟩ => rfl
  have hr12 : ∀ k : Fin 4096, Read.ridx_main_v12 (ix3 b r o) k = ix2 o k := fun k => funext fun a => by
    match a with | ⟨0, _⟩ => rfl | ⟨1, _⟩ => rfl
  have hb : Read.idx_main_v9 (Read.idx_main_v10 (ix3 b r o)) = ix1 o := funext fun a => by
    match a with | ⟨0, _⟩ => rfl
  rw [Read.val_main_v15_apply, Read.val_main_v11_apply, Read.val_main_v8_apply, Read.val_main_v10_apply,
    Read.val_main_v9_apply, Read.val_main_v14_apply, Read.val_main_v12_apply, Read.val_main_v13_apply,
    Read.val_main_cst_0_apply, hb]
  simp only [Ideal.addf_def, Ideal.mulf_def, Ideal.ofBits_def, hl8, hr8, hl12, hr12, weight_apply]
  rfl

end Cert.ReferenceIdeal.RefValue
end
-- ==== Proof.Finite.lean ====
/-
  From the precondition to "every float input is a real number".

  The precondition takes the absolute value of each of the four float inputs, compares every entry with +∞ by "less
  than", reduces each comparison array by "and" over all its axes, and takes the "and" of the four results. When the
  result is 1, each of the four reductions is 1, so every compared entry is 1: the absolute value of every entry lies
  strictly below +∞. An extended real whose absolute value lies below +∞ is neither infinity, hence a real number.
-/
import proofs.«107376_j91096256348593_1_alg».proof.Pre_finite_inputs
import proofs.«107376_j91096256348593_1_alg».proof.Proof.Spec
import Idealize.ShloMosaic.Lib.ReduceAll
import Idealize.ShloMosaic.Lib.ValueIdx

noncomputable section
open Idealize.ShloMosaic Idealize.ShloMosaic.ValueIdx

namespace Cert.Pre_finite_inputs.Finite
open Cert.Pre_finite_inputs

/-- The float word `0x7F800000` is +∞. -/
theorem inf_word : Ideal.ofBits .f32 0x7F800000#32 = (⊤ : EReal) := by simp [Ideal.ofBits, Ideal.ieee]

/-- An extended real whose absolute value compares "less than" against the word of +∞ is a real number. -/
theorem real_of_abs_lt (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

theorem real_of_pre [Cert.Pre_finite_inputs.Facts] (x0 : FVec Ideal S8x2048x4096 .f32) (x1 : IVec S4096x4096 32) (x2 : FVec Ideal S4096x64 .f32)
    (x3 : FVec Ideal S4096 .f32) (x4 : FVec Ideal S4096x4096 .f32)
    (h : Cert.Pre_finite_inputs.fn (F := Ideal) x0 x1 x2 x3 x4 = (fun _ => 1#1)) :
    Cert.Spec.AllReal x0 ∧ Cert.Spec.AllReal x2 ∧ Cert.Spec.AllReal x3 ∧ Cert.Spec.AllReal x4 := by
  haveI : Subsingleton S_.Idx := ⟨fun a b => funext fun d => d.elim0⟩
  have h0 := congrFun h ix0
  dsimp only [fn, fn_part1] at h0
  obtain ⟨h012, h4⟩ := IntOp.andi_eq_one.1 h0
  obtain ⟨h01, h3⟩ := IntOp.andi_eq_one.1 h012
  obtain ⟨h0', h2⟩ := IntOp.andi_eq_one.1 h01
  exact ⟨fun i => real_of_abs_lt (x0 i) (Host.reduce_andi_all _ _ _ _ _ h0' i),
    fun i => real_of_abs_lt (x2 i) (Host.reduce_andi_all _ _ _ _ _ h2 i),
    fun i => real_of_abs_lt (x3 i) (Host.reduce_andi_all _ _ _ _ _ h3 i),
    fun i => real_of_abs_lt (x4 i) (Host.reduce_andi_all _ _ _ _ _ h4 i)⟩

end Cert.Pre_finite_inputs.Finite
end
-- ==== Proof.Algebra.lean ====
/-
  The two arrangements of the layer's output agree on real inputs.

  First, the sum over the 64 groups of `sc(o, g) · E(g, k)` against the 0/1 group matrix is `sc(o, ⌊k / 64⌋)`: one
  summand has the factor 1 and every other the factor 0, and on the extended reals a product with 0 is 0 whatever the
  other factor is, so this step asks nothing of the scales. The combined weight is therefore the dequantized weight
  plus twice `dw`.

  Second, when the input, the scales, the bias and `dw` are real, every term is a real number (an integer code is one
  always; the float words of 8 and 2 denote 8 and 2), and the claim is the identity
  `Σ x·(a + 2·d) + b = (Σ x·a + b) + (Σ x·d)·2` over the reals: distributivity of the product over the sum, which is
  the one step that needs the entries to be finite.
-/
import proofs.«107376_j91096256348593_1_alg».proof.Proof.Spec

noncomputable section

open scoped BigOperators

namespace Cert.Spec

open Idealize.ShloMosaic Idealize.ShloMosaic.ValueIdx

/-- The float word of 8 denotes the real 8. -/
theorem c8_eq : c8 = ((8 : ℝ) : EReal) := by
  simp [c8, Ideal.ofBits, Ideal.ieee, -EReal.coe_mul]; norm_num

/-- The float word of 2 denotes the real 2. -/
theorem c2_eq : c2 = ((2 : ℝ) : EReal) := by
  simp [c2, Ideal.ofBits, Ideal.ieee, -EReal.coe_mul]; norm_num

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The group matrix at `(g, k)`. -/
theorem expand_ix2 (g : Fin 64) (k : Fin 4096) : expand (ix2 g k) = if g.val = k.val / 64 then 1 else 0 := rfl

/-- A row of scales against the column `k` of the group matrix is the scale of `k`'s group. -/
theorem sum_expand (sc : Ss.Idx → EReal) (o : Fin 4096) (k : Fin 4096) :
    ∑ g : Fin 64, sc (ix2 o g) * expand (ix2 g k) = sc (ix2 o (grp k)) := by
  rw [Finset.sum_eq_single (grp k)]
  · rw [expand_ix2, if_pos (show (grp k).val = k.val / 64 from rfl), mul_one]
  · intro g _ hg
    have hne : ¬ (g.val = k.val / 64) := fun h => hg (Fin.ext h)
    rw [expand_ix2, if_neg hne, mul_zero]
  · intro h; exact absurd (Finset.mem_univ _) h

/-- The combined weight with the group matrix in place: the dequantized weight plus twice `dw`. -/
theorem weff_expand (cd : Sw.Idx → BitVec 32) (sc : Ss.Idx → EReal) (dw : Sw.Idx → EReal) (o k : Fin 4096) :
    weff cd sc expand dw (ix2 o k) = (code (cd (ix2 o k)) - c8) * sc (ix2 o (grp k)) + c2 * dw (ix2 o k) := by
  show (code (cd (ix2 o k)) - c8) * (∑ g : Fin 64, sc (ix2 o g) * expand (ix2 g k)) + c2 * dw (ix2 o k) = _
  rw [sum_expand]

/-- The identity over the reals: one product with the combined weight against two products added. -/
theorem real_law {ι : Type} (s : Finset ι) (x a d : ι → ℝ) (b : ℝ) :
    (∑ k ∈ s, x k * (a k + 2 * d k)) + b = ((∑ k ∈ s, x k * a k) + b) + (∑ k ∈ s, x k * d k) * 2 := by
  have h : ∀ k, x k * (a k + 2 * d k) = x k * a k + 2 * (x k * d k) := fun k => by ring
  simp only [h, Finset.sum_add_distrib, ← Finset.mul_sum]
  ring

/-- The kernel's arrangement at explicit coordinates. -/
theorem kerOut_ix3 (x : Sx.Idx → EReal) (cd : Sw.Idx → BitVec 32) (sc : Ss.Idx → EReal) (bs : Sb.Idx → EReal)
    (dw : Sw.Idx → EReal) (b : Fin 8) (s : Fin 2048) (o : Fin 4096) :
    kerOut x cd sc bs dw (ix3 b s o)
      = (∑ k : Fin 4096, x (ix3 b s k) * weff cd sc expand dw (ix2 o k)) + bs (ix1 o) := rfl

/-- The reference's arrangement at explicit coordinates. -/
theorem refOut_ix3 (x : Sx.Idx → EReal) (cd : Sw.Idx → BitVec 32) (sc : Ss.Idx → EReal) (bs : Sb.Idx → EReal)
    (dw : Sw.Idx → EReal) (b : Fin 8) (s : Fin 2048) (o : Fin 4096) :
    refOut x cd sc bs dw (ix3 b s o)
      = ((∑ k : Fin 4096, x (ix3 b s k) * ((code (cd (ix2 o k)) - c8) * sc (ix2 o (grp k)))) + bs (ix1 o))
        + (∑ k : Fin 4096, x (ix3 b s k) * dw (ix2 o k)) * c2 := rfl

/-- On real inputs the kernel's arrangement is the reference's. -/
theorem kerOut_eq_refOut (x : Sx.Idx → EReal) (cd : Sw.Idx → BitVec 32) (sc : Ss.Idx → EReal) (bs : Sb.Idx → EReal)
    (dw : Sw.Idx → EReal) (hx : AllReal x) (hs : AllReal sc) (hb : AllReal bs) (hd : AllReal dw) :
    kerOut x cd sc bs dw = refOut x cd sc bs dw := by
  funext i
  obtain ⟨b, s, o, rfl⟩ : ∃ (b : Fin 8) (s : Fin 2048) (o : Fin 4096), i = ix3 b s o := ⟨i 0, i 1, i 2, eq_ix3 i⟩
  choose xr hxr using hx
  choose sr hsr using hs
  choose br hbr using hb
  choose dr hdr using hd
  rw [kerOut_ix3, refOut_ix3]
  simp only [weff_expand, hxr, hsr, hbr, hdr, c8_eq, c2_eq, code]
  simp only [← EReal.coe_sub, ← EReal.coe_mul, ← EReal.coe_add, ← coe_sum]
  rw [EReal.coe_eq_coe_iff]
  exact real_law (Finset.univ : Finset (Fin 4096)) _ _ _ _

end Cert.Spec

end
-- ==== Proof.lean ====
/-
  The proof of `Cert.Claim`: a quantized linear layer with a dense correction, computed by two grid regions, against
  its plain reference.

  The weight is stored as integer codes with one scale per row and per group of 64 columns; the layer's output is
  `x · ((cd - 8) · sc)ᵀ + bs + 2 · (x · dwᵀ)`. The reference forms the two products separately. The kernel first builds
  the combined weight `(cd - 8) · sc + 2 · dw` (picking each column's scale by a product with a 0/1 group matrix), then
  multiplies once and adds the bias.

  The three frames: the kernel program's two are the generated frame of its five segments; the reference's is its
  generated run with the result dropped. The idealization rewrote nothing, so `preserves` is trivial. For `algebraic`:
  the kernel program's run names its result as the last boundary's contents (Proof/KernelRun.lean), which read back
  through the two regions and the host stretches are the kernel's arrangement of the arguments
  (Proof/KernelValue.lean over Proof/HostFold.lean, Proof/Region0.lean, Proof/Region1.lean, Proof/Flatten.lean); the
  reference's run read entry by entry is the reference's arrangement (Proof/RefRead.lean); under the precondition all
  float inputs are real (Proof/Finite.lean), and on real inputs the two arrangements are equal by distributivity
  (Proof/Algebra.lean).
-/
import proofs.«107376_j91096256348593_1_alg».proof.Defs
import proofs.«107376_j91096256348593_1_alg».proof.Proof.Gen.Kernel
import proofs.«107376_j91096256348593_1_alg».proof.Proof.Gen.Kernel.Skeleton
import proofs.«107376_j91096256348593_1_alg».proof.Proof.Gen.Kernel.Launch
import proofs.«107376_j91096256348593_1_alg».proof.Proof.Gen.Kernel.Points
import proofs.«107376_j91096256348593_1_alg».proof.Proof.Gen.Kernel.Frame
import proofs.«107376_j91096256348593_1_alg».proof.Proof.Gen.KernelIdeal
import proofs.«107376_j91096256348593_1_alg».proof.Proof.Gen.KernelIdeal.Skeleton
import proofs.«107376_j91096256348593_1_alg».proof.Proof.Gen.KernelIdeal.Launch
import proofs.«107376_j91096256348593_1_alg».proof.Proof.Gen.KernelIdeal.Points
import proofs.«107376_j91096256348593_1_alg».proof.Proof.Gen.KernelIdeal.Frame
import proofs.«107376_j91096256348593_1_alg».proof.Proof.Gen.ReferenceIdeal
import proofs.«107376_j91096256348593_1_alg».proof.Proof.Gen.ReferenceIdeal.Run
import proofs.«107376_j91096256348593_1_alg».proof.Proof.Gen.ReferenceIdeal.Read
import proofs.«107376_j91096256348593_1_alg».proof.Proof.Gen.Pre_finite_inputs
import proofs.«107376_j91096256348593_1_alg».proof.Proof.KernelRun
import proofs.«107376_j91096256348593_1_alg».proof.Proof.KernelValue
import proofs.«107376_j91096256348593_1_alg».proof.Proof.RefRead
import proofs.«107376_j91096256348593_1_alg».proof.Proof.Finite
import proofs.«107376_j91096256348593_1_alg».proof.Proof.Algebra
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the reference's arrangement of the arguments: the kernel's at its own arrangement, which on
    the real inputs the precondition grants is the same function. -/
theorem algebraic : Cert.algebraic_KernelIdeal_ReferenceIdeal := by
  intro m ρ m' ρ' hpre hagree
  refine ⟨fun c => Cert.Spec.refOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun r h c => ⟨(h c).1.trans ?_, (h c).2⟩)
      (Cert.KernelIdeal.RunValue.run_named (F := Ideal) m ρ)
    obtain ⟨h0, h2, h3, h4⟩ := Cert.Pre_finite_inputs.Finite.real_of_pre _ _ _ _ _ (hpre c)
    exact (Cert.KernelIdeal.KernelValue.result_eq m ρ c).trans (Cert.Spec.kerOut_eq_refOut _ _ _ _ _ h0 h2 h3 h4)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, Cert.ReferenceIdeal.RefValue.ref_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
